-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x4096x64 .f32 := Host.absf main_arg1
  let main_cst_0 : FVec F S_ .f32 := constant S_ .f32 0x7F800000#32
  let main_v5 : FVec F S1x16x4096x64 .f32 := broadcastInDim S1x16x4096x64 ![] bcast_S_S1x16x4096x64 main_cst_0
  let main_v6 : IVec S1x16x4096x64 1 := cmpf .olt main_v4 main_v5
  let main_c_1 : IVec S_ 1 := constantI S_ 1 1#1
  let main_v7 : IVec S_ 1 := (fun x v => Host.reduce IntOp.andi x v reducesTo_S1x16x4096x64_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  main_v13
-- ==== Kernel.lean ====
abbrev S1x16x4096x64 : Shape := ⟨4, ![1, 16, 4096, 64]⟩
abbrev S1x16x4096x4096 : Shape := ⟨4, ![1, 16, 4096, 4096]⟩
abbrev S1x1x256x64 : Shape := ⟨4, ![1, 1, 256, 64]⟩
abbrev S1x1x4096x64 : Shape := ⟨4, ![1, 1, 4096, 64]⟩
abbrev S1x1x256x4096 : Shape := ⟨4, ![1, 1, 256, 4096]⟩
abbrev S4096x64 : Shape := ⟨2, ![4096, 64]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x64, .f32⟩
  | .hbm, ⟨4, _⟩ => ⟨S1x16x4096x4096, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x4096, .f32⟩
  | .local _ .vmem, ⟨9, _⟩ => ⟨S1x1x256x4096, .f32⟩
  | .local _ .vmem, ⟨10, _⟩ => ⟨S4096x64, .bf16⟩
  | .local _ .vmem, ⟨11, _⟩ => ⟨S4096x64, .bf16⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  reduces_S256x4096_S256 : S256x4096.Reduces [1] S256
  shapeCasts_S256_S256x1 : S256.ShapeCasts S256x1
  broadcasts_S256x1_S256x4096 : S256x1.Broadcasts S256x4096
  inb_S1x1x256x4096_S1x1x256x4096_0_0_0_0 : ∀ a, (![0, 0, 0, 0] : Fin 4 → Nat) a + S1x1x256x4096.size a ≤ S1x1x256x4096.size a
  h_S1x1x256x4096 : 0 < S1x1x256x4096.numel
  shapeCasts_S1x1x256x4096_S256x4096 : S1x1x256x4096.ShapeCasts S256x4096
  shapeCasts_S256x4096_S1x1x256x4096 : S256x4096.ShapeCasts S1x1x256x4096
  shapeCasts_S256x64_S1x1x256x64 : S256x64.ShapeCasts S1x1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S1x16x4096x64.size a
  hwx0_0 : ∀ i : grid0.Coords, EltTy.bits .f32 = 32 ∨ (Rect.block (s := S1x16x4096x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S1x16x4096x64.size a
  hwx0_1 : ∀ i : grid0.Coords, EltTy.bits .f32 = 32 ∨ (Rect.block (s := S1x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S1x16x4096x64.size a
  hwx0_2 : ∀ i : grid0.Coords, EltTy.bits .f32 = 32 ∨ (Rect.block (s := S1x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x64.size a ≤ S1x16x4096x64.size a
  hwx0_3 : ∀ i : grid0.Coords, EltTy.bits .f32 = 32 ∨ (Rect.block (s := S1x16x4096x64) S1x1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x4096.size a ≤ S1x16x4096x4096.size a
  hwx0_4 : ∀ i : grid0.Coords, EltTy.bits .f32 = 32 ∨ (Rect.block (s := S1x16x4096x4096) S1x1x256x4096.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x16x4096x64 : Shape := ⟨4, ![1, 16, 4096, 64]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x4096, .f32⟩
  | .hbm, ⟨4, _⟩ => ⟨S_, .f32⟩
  | .hbm, ⟨5, _⟩ => ⟨S_, .f32⟩
  | .hbm, ⟨6, _⟩ => ⟨S1x16x4096x4096, .f32⟩
  | .hbm, ⟨7, _⟩ => ⟨S1x16x4096x4096, .f32⟩
  | .hbm, ⟨8, _⟩ => ⟨S_, .f32⟩
  | .hbm, ⟨9, _⟩ => ⟨S1x16x4096, .f32⟩
  | .hbm, ⟨10, _⟩ => ⟨S_, .f32⟩
  | .hbm, ⟨11, _⟩ => ⟨S1x16x4096, .f32⟩
  | .hbm, ⟨12, _⟩ => ⟨S1x16x4096, .f32⟩
  | .hbm, ⟨13, _⟩ => ⟨S1x16x4096x1, .f32⟩
  | .hbm, ⟨14, _⟩ => ⟨S1x16x4096x4096, .f32⟩
  | .hbm, ⟨15, _⟩ => ⟨S1x16x4096x4096, .f32⟩
  | .hbm, ⟨16, _⟩ => ⟨S1x16x4096x4096, .f32⟩
  | .hbm, ⟨17, _⟩ => ⟨S_, .f32⟩
  | .hbm, ⟨18, _⟩ => ⟨S1x16x4096, .f32⟩
  | .hbm, ⟨19, _⟩ => ⟨S1x16x4096x1, .f32⟩
  | .hbm, ⟨20, _⟩ => ⟨S1x16x4096x4096, .f32⟩
  | .hbm, ⟨21, _⟩ => ⟨S1x16x4096x4096, .f32⟩
  | .hbm, ⟨22, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S1x16x4096x4096 : S_.BroadcastsInDim S1x16x4096x4096 (![] : Fin 0 → Fin S1x16x4096x4096.rank)
  reducesTo_S1x16x4096x4096_S1x16x4096_d3 : S1x16x4096x4096.ReducesTo [3] S1x16x4096
  h_S_ : 0 < S_.numel
  bcast_S_S1x16x4096 : S_.BroadcastsInDim S1x16x4096 (![] : Fin 0 → Fin S1x16x4096.rank)
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.Softmax.lean ====
/-
  Scaled dot-product attention with the whole score matrix, as one function of the three argument arrays.

  For a head h and a query row r the logit against key row c is the sum over the 64 features d of
  (q[h,r,d] · s) · k[h,c,d], s the scale. The row's scores are the softmax of its 4096 logits, taken the stable way:
  with M the maximum of the row (from -∞), e_c = exp (logit_c - M) and Z = ∑ e_c, the score is e_c / Z. The output row
  is ∑_c score_c · v[h,c,·].

  Two spellings of the logit meet here. One scales the query before the product, by the f32 word of 1/8; the other
  divides the finished dot product by the square root of the f32 word of 64. On REAL entries they agree: the word of
  64 denotes 64, whose root is 8, division by 8 is the product with 1/8 on every extended real, and on the reals a
  factor moves across a finite sum (`logit_eq_logitDiv`). On the extended reals the move is not free — a sum may
  meet +∞ and -∞ — which is why the entries are asked to be real.
-/
import Idealize.ShloMosaic.PureOps.Ideal
import Idealize.ShloMosaic.Lib.ValueIdx

noncomputable section

namespace Cert.Attn

open Idealize.ShloMosaic Idealize.ShloMosaic.ValueIdx

/-- An argument array: one batch, 16 heads, 4096 rows, 64 features. -/
abbrev Arr := (⟨4, ![1, 16, 4096, 64]⟩ : Shape).Idx → EReal

/-- The f32 word of the scale 1/8. -/
abbrev scaleW : EReal := Ideal.ofBits .f32 0x3E000000#32
/-- The f32 word of -∞, from which a row's maximum is taken. -/
abbrev negInfW : EReal := Ideal.ofBits .f32 0xFF800000#32
/-- The f32 word of 64, the feature count whose root divides the logits. -/
abbrev dimW : EReal := Ideal.ofBits .f32 0x42800000#32

/-- The logit of query row r against key row c in head h, the query scaled first. -/
def logit (q k : Arr) (h : Fin 16) (r c : Fin 4096) : EReal :=
  ∑ d : Fin 64, (q (ix4 (0 : Fin 1) h r d) * scaleW) * k (ix4 (0 : Fin 1) h c d)

/-- The same logit, the finished dot product divided by the root of the feature count. -/
def logitDiv (q k : Arr) (h : Fin 16) (r c : Fin 4096) : EReal :=
  Ideal.div (∑ d : Fin 64, q (ix4 (0 : Fin 1) h r d) * k (ix4 (0 : Fin 1) h c d)) (Ideal.sqrt dimW)

/-- A row's maximum, folded from -∞. -/
def rowMax (s : Fin 4096 → EReal) : EReal := (Finset.univ : Finset (Fin 4096)).fold max negInfW s

/-- exp of a row's entry less the row's maximum. -/
def expShift (s : Fin 4096 → EReal) (c : Fin 4096) : EReal := Ideal.exp (s c - rowMax s)

/-- The softmax of a row, entry c. -/
def softmaxRow (s : Fin 4096 → EReal) (c : Fin 4096) : EReal :=
  Ideal.div (expShift s c) (∑ c' : Fin 4096, expShift s c')

/-- The score matrix: entry (h, r, c) is the softmax over c of row (h, r)'s logits. -/
def score (q k : Arr) : (⟨4, ![1, 16, 4096, 4096]⟩ : Shape).Idx → EReal :=
  fun i => softmaxRow (logit q k (i 1) (i 2)) (i 3)

/-- The attention output: row (h, r) is the score row against the value rows of head h. -/
def out (q k v : Arr) : (⟨4, ![1, 16, 4096, 64]⟩ : Shape).Idx → EReal :=
  fun i => ∑ c : Fin 4096, score q k (ix4 (0 : Fin 1) (i 1) (i 2) c) * v (ix4 (0 : Fin 1) (i 1) c (i 3))

/-! ## The two spellings of the logit agree on real entries -/

theorem scaleW_eq : scaleW = ((1 / 8 : ℝ) : EReal) := by
  simp [scaleW, Ideal.ofBits, Ideal.ieee, -EReal.coe_mul]; norm_num

theorem dimW_eq : dimW = ((64 : ℝ) : EReal) := by
  simp [dimW, Ideal.ofBits, Ideal.ieee, -EReal.coe_mul]; norm_num

theorem sqrt_dimW : Ideal.sqrt dimW = ((8 : ℝ) : EReal) := by
  rw [dimW_eq, Ideal.sqrt_coe, if_neg (by norm_num)]
  congr 1
  rw [show (64 : ℝ) = 8 ^ 2 by norm_num, Real.sqrt_sq (by norm_num)]

/-- The coercion of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- On real entries, scaling the query by 1/8 before the dot product is dividing the dot product by √64. -/
theorem logit_eq_logitDiv (q k : Arr) (hq : ∀ i, ∃ x : ℝ, q i = x) (hk : ∀ i, ∃ x : ℝ, k i = x)
    (h : Fin 16) (r c : Fin 4096) : logitDiv q k h r c = logit q k h r c := by
  choose qr hqr using hq
  choose kr hkr using hk
  unfold logit logitDiv
  rw [sqrt_dimW, Ideal.div_coe (by norm_num : (8 : ℝ) ≠ 0), scaleW_eq]
  simp only [hqr, hkr, ← EReal.coe_mul, ← coe_sum]
  congr 1
  rw [Finset.sum_mul]
  exact Finset.sum_congr rfl fun d _ => by ring

end Cert.Attn

end
-- ==== Proof.RefSpec.lean ====
/-
  The reference program, read one operation at a time, is the scaled dot-product attention of the specification.

  The program forms the dot products of query rows against key rows, divides them by the root of the feature count,
  takes each row's maximum by a fold from -∞ (and once more against -∞, which changes nothing), subtracts it,
  exponentiates, sums each row from 0, divides, and contracts the quotient against the value rows. On real entries
  the divided dot product is the logit with the query scaled first, so the quotient is the score matrix and the
  contraction is the output.
-/
import proofs.«182152_j69741678952654_2_alg».proof.Proof.Gen.ReferenceIdeal.Read
import proofs.«182152_j69741678952654_2_alg».proof.Proof.Softmax
import Idealize.ShloMosaic.PureOps.Ideal.Laws
import Idealize.ShloMosaic.PureOps.Reduce

noncomputable section

namespace Cert.Attn.Ref

open Idealize.ShloMosaic Idealize.ShloMosaic.ValueIdx Cert.ReferenceIdeal Cert.ReferenceIdeal.Gen Cert.ReferenceIdeal.Read

/-- The left operand's index of the first contraction: head and query row of the result index, feature d. -/
theorem lidx_v0 (i : S1x16x4096x4096.Idx) (d : Fin 64) : lidx_main_v0 i d = ix4 (0 : Fin 1) (i 1) (i 2) d :=
  funext fun a => Fin.ext (by
    match a with
    | ⟨0, _⟩ => exact Nat.lt_one_iff.mp (i 0).isLt
    | ⟨1, _⟩ => rfl
    | ⟨2, _⟩ => rfl
    | ⟨3, _⟩ => rfl)

/-- The right operand's index of the first contraction: head and key row of the result index, feature d. -/
theorem ridx_v0 (i : S1x16x4096x4096.Idx) (d : Fin 64) : ridx_main_v0 i d = ix4 (0 : Fin 1) (i 1) (i 3) d :=
  funext fun a => Fin.ext (by
    match a with
    | ⟨0, _⟩ => exact Nat.lt_one_iff.mp (i 0).isLt
    | ⟨1, _⟩ => rfl
    | ⟨2, _⟩ => rfl
    | ⟨3, _⟩ => rfl)

/-- The divided dot product is the logit in its divided spelling. -/
theorem v3_div (q k : Arr) (i : S1x16x4096x4096.Idx) :
    val_main_v3 (F := Ideal) q k i = logitDiv q k (i 1) (i 2) (i 3) := by
  rw [val_main_v3_apply, val_main_v0_apply, val_main_v2_apply, val_main_v1_apply, val_main_cst_apply]
  simp only [Ideal.hostDivf_def, Ideal.hostUnary_sqrt_def, Ideal.ofBits_def, lidx_v0, ridx_v0]
  rfl

/-- On real entries the divided dot product is the logit. -/
theorem v3_eq (q k : Arr) (hq : ∀ i, ∃ x : ℝ, q i = x) (hk : ∀ i, ∃ x : ℝ, k i = x) (i : S1x16x4096x4096.Idx) :
    val_main_v3 (F := Ideal) q k i = logit q k (i 1) (i 2) (i 3) :=
  (v3_div q k i).trans (logit_eq_logitDiv q k hq hk _ _ _)

/-- The fact that the score shape with its last axis dropped is the row shape, in the form the fold's index uses. -/
theorem reduces_d3 : S1x16x4096x4096.Reduces [3] S1x16x4096 := by decide

/-- The index over a row index with key row c inserted. -/
theorem lift_d3 (j : S1x16x4096.Idx) (c : Fin 4096) :
    reduces_d3.lift j c = ix4 (0 : Fin 1) (j 1) (j 2) c :=
  funext fun a => Fin.ext (by
    match a with
    | ⟨0, _⟩ => exact Nat.lt_one_iff.mp (j 0).isLt
    | ⟨1, _⟩ => rfl
    | ⟨2, _⟩ => rfl
    | ⟨3, _⟩ => rfl)

/-- The maximum-reduce over key rows is the row's maximum folded from -∞. -/
theorem v4_eq (q k : Arr) (hq : ∀ i, ∃ x : ℝ, q i = x) (hk : ∀ i, ∃ x : ℝ, k i = x) (j : S1x16x4096.Idx) :
    val_main_v4 (F := Ideal) q k j = rowMax (logit q k (j 1) (j 2)) := by
  unfold val_main_v4
  rw [Host.reduce_eq_fold_single (FloatOps.maximumf (F := Ideal) (φ := .f32)) _ _ reducesTo_S1x16x4096x4096_S1x16x4096_d3 reduces_d3 h_S_ j]
  have e : (val_main_v3 (F := Ideal) q k ∘ reduces_d3.lift j) = logit q k (j 1) (j 2) :=
    funext fun c => (congrArg (val_main_v3 (F := Ideal) q k) (lift_d3 j c)).trans (v3_eq q k hq hk _)
  rw [e]
  rfl

/-- A row's maximum is at least the -∞ it is folded from, so the maximum against -∞ is the row's maximum. -/
theorem max_negInf_rowMax (s : Fin 4096 → EReal) : max negInfW (rowMax s) = rowMax s :=
  max_eq_right ((Finset.le_fold_max (s := Finset.univ) (f := s) (b := negInfW) (c := negInfW)).mpr (Or.inl le_rfl))

/-- The second maximum, against the broadcast -∞, is still the row's maximum. -/
theorem v6_eq (q k : Arr) (hq : ∀ i, ∃ x : ℝ, q i = x) (hk : ∀ i, ∃ x : ℝ, k i = x) (j : S1x16x4096.Idx) :
    val_main_v6 (F := Ideal) q k j = rowMax (logit q k (j 1) (j 2)) := by
  rw [val_main_v6_apply, val_main_v5_apply, val_main_cst_1_apply, v4_eq q k hq hk]
  exact max_negInf_rowMax _

/-- The row's maximum, broadcast back over the key rows. -/
theorem v8_eq (q k : Arr) (hq : ∀ i, ∃ x : ℝ, q i = x) (hk : ∀ i, ∃ x : ℝ, k i = x) (i : S1x16x4096x4096.Idx) :
    val_main_v8 (F := Ideal) q k i = rowMax (logit q k (i 1) (i 2)) := by
  rw [val_main_v8_apply, val_main_v7_apply, v6_eq q k hq hk]
  rfl

/-- The exponential of the logit less its row's maximum. -/
theorem v10_eq (q k : Arr) (hq : ∀ i, ∃ x : ℝ, q i = x) (hk : ∀ i, ∃ x : ℝ, k i = x) (i : S1x16x4096x4096.Idx) :
    val_main_v10 (F := Ideal) q k i = expShift (logit q k (i 1) (i 2)) (i 3) := by
  rw [val_main_v10_apply, val_main_v9_apply, v3_eq q k hq hk, v8_eq q k hq hk]
  rfl

/-- The index of the sum over key rows: the row index with key row c inserted. -/
theorem idx_v11 (j : S1x16x4096.Idx) (c : Fin 4096) : idx_main_v11 j c = ix4 (0 : Fin 1) (j 1) (j 2) c :=
  funext fun a => Fin.ext (by
    match a with
    | ⟨0, _⟩ => exact Nat.lt_one_iff.mp (j 0).isLt
    | ⟨1, _⟩ => rfl
    | ⟨2, _⟩ => rfl
    | ⟨3, _⟩ => rfl)

/-- The sum-reduce over key rows, from the word of 0, is the row's sum of exponentials. -/
theorem v11_eq (q k : Arr) (hq : ∀ i, ∃ x : ℝ, q i = x) (hk : ∀ i, ∃ x : ℝ, k i = x) (j : S1x16x4096.Idx) :
    val_main_v11 (F := Ideal) q k j = ∑ c : Fin 4096, expShift (logit q k (j 1) (j 2)) c := by
  rw [val_main_v11_apply, val_main_cst_2_apply, Ideal.ofBits_def, Ideal.ofBits_zero_f32, zero_add]
  exact Finset.sum_congr rfl fun c _ =>
    (congrArg (val_main_v10 (F := Ideal) q k) (idx_v11 j c)).trans (v10_eq q k hq hk _)

/-- The row's sum, broadcast back over the key rows. -/
theorem v13_eq (q k : Arr) (hq : ∀ i, ∃ x : ℝ, q i = x) (hk : ∀ i, ∃ x : ℝ, k i = x) (i : S1x16x4096x4096.Idx) :
    val_main_v13 (F := Ideal) q k i = ∑ c : Fin 4096, expShift (logit q k (i 1) (i 2)) c := by
  rw [val_main_v13_apply, val_main_v12_apply, v11_eq q k hq hk]
  rfl

/-- The quotient is the score matrix. -/
theorem score_eq (q k : Cert.Attn.Arr) (hq : ∀ i, ∃ x : ℝ, q i = x) (hk : ∀ i, ∃ x : ℝ, k i = x) :
    Cert.ReferenceIdeal.Read.val_main_v14 (F := Ideal) q k = Cert.Attn.score q k := by
  funext i
  rw [val_main_v14_apply, v10_eq q k hq hk, v13_eq q k hq hk]
  rfl

/-- The left operand's index of the second contraction: head and query row of the result index, key row c. -/
theorem lidx_v15 (i : S1x16x4096x64.Idx) (c : Fin 4096) : lidx_main_v15 i c = ix4 (0 : Fin 1) (i 1) (i 2) c :=
  funext fun a => Fin.ext (by
    match a with
    | ⟨0, _⟩ => exact Nat.lt_one_iff.mp (i 0).isLt
    | ⟨1, _⟩ => rfl
    | ⟨2, _⟩ => rfl
    | ⟨3, _⟩ => rfl)

/-- The right operand's index of the second contraction: head and feature of the result index, value row c. -/
theorem ridx_v15 (i : S1x16x4096x64.Idx) (c : Fin 4096) : ridx_main_v15 i c = ix4 (0 : Fin 1) (i 1) c (i 3) :=
  funext fun a => Fin.ext (by
    match a with
    | ⟨0, _⟩ => exact Nat.lt_one_iff.mp (i 0).isLt
    | ⟨1, _⟩ => rfl
    | ⟨2, _⟩ => rfl
    | ⟨3, _⟩ => rfl)

/-- The contraction of the quotient against the value rows is the attention output. -/
theorem out_eq (q k v : Cert.Attn.Arr) (hq : ∀ i, ∃ x : ℝ, q i = x) (hk : ∀ i, ∃ x : ℝ, k i = x) :
    Cert.ReferenceIdeal.Read.val_main_v15 (F := Ideal) q k v = Cert.Attn.out q k v := by
  funext i
  rw [val_main_v15_apply, score_eq q k hq hk]
  refine Finset.sum_congr rfl fun c _ => ?_
  rw [lidx_v15, ridx_v15]
  rfl

end Cert.Attn.Ref

end
-- ==== Proof.Finite.lean ====
/-
  The precondition says the three argument arrays are finite; read back, every entry of each is a real number.

  The predicate is the conjunction of three tests, one per array: every entry's absolute value is below +∞. A
  conjunction of one-bit words is 1 exactly when both are; an and-reduce over all axes that came out 1 met a 1 at
  every entry; and an extended real whose absolute value max x (-x) is below +∞ is neither infinity, so it is real.
-/
import proofs.«182152_j69741678952654_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn.Finite

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- The f32 word of +∞ denotes the top of the extended reals. -/
theorem posInfW_eq : Ideal.ofBits .f32 0x7F800000#32 = (⊤ : EReal) := by simp [Ideal.ofBits, Ideal.ieee]

/-- An extended real whose absolute value is below +∞ is real. -/
theorem real_of_abs_lt_top (x : EReal) (h : max x (-x) < (⊤ : EReal)) : ∃ r : ℝ, x = r := by
  induction x using EReal.rec with
  | bot => simp at h
  | coe r => exact ⟨r, rfl⟩
  | top => simp at h

/-- One entry's test: the comparison of its absolute value against the word of +∞ came out 1, so it is real. -/
theorem real_of_test (x : EReal)
    (h : FloatOps.cmpf (F := Ideal) (φ := .f32) .olt (FloatOps.absf (F := Ideal) (φ := .f32) x)
      (FloatOps.ofBits (F := Ideal) .f32 0x7F800000#32) = 1#1) : ∃ r : ℝ, x = r := by
  rw [Ideal.cmpf_def, Ideal.absf_def, Ideal.ofBits_def, posInfW_eq] at h
  refine real_of_abs_lt_top x ?_
  by_contra hn
  simp [Ideal.cmp, hn] at h

/-- The precondition holds, so every entry of the three arrays is real. -/
theorem real_of_pre (x0 x1 x2 : FVec Ideal S1x16x4096x64 .f32)
    (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have e := congrFun h ix0
  dsimp only [Cert.Pre_finite_inputs.fn] at e
  obtain ⟨e01, e2⟩ := IntOp.andi_eq_one.1 e
  obtain ⟨e0, e1⟩ := IntOp.andi_eq_one.1 e01
  exact ⟨fun i => real_of_test (x0 i) (Host.reduce_andi_all _ _ _ _ ix0 e0 i),
    fun i => real_of_test (x1 i) (Host.reduce_andi_all _ _ _ _ ix0 e1 i),
    fun i => real_of_test (x2 i) (Host.reduce_andi_all _ _ _ _ ix0 e2 i)⟩

end Cert.Attn.Finite

end
-- ==== Proof.Pieces.lean ====
/-
  What one run of the body leaves behind, as values of what it was given.

  The body of the attention kernel, at one grid point, holds a block of 256 query rows of one head, that head's
  4096 key rows and 4096 value rows, and two scratch buffers. At the head's first query block it first copies the key
  rows and the value rows into the scratch buffers; at every query block it then reads the scratch buffers back and
  computes, from the query block and the carried key rows, the 256 × 4096 block of softmax scores, and from those and
  the carried value rows the 256 × 64 output block. Each store covers its buffer whole, so what a buffer holds
  afterwards is the stored value: the lemmas below say which value, for the two cases, in terms of the body's own
  arithmetic (the payload terms), for any float interpretation.
-/
import proofs.«182152_j69741678952654_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Away from a head's first query block the body leaves, in the score block, the softmax payload of the query
    block and of the key rows the scratch carries. -/
theorem score_B (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x1x256x64 .f32) (x1 : Vec F S1x1x4096x64 .f32) (x2 : Vec F S1x1x4096x64 .f32) (xs0 : Vec F S4096x64 .bf16) (xs1 : Vec F S4096x64 .bf16) :
    out0_B_4 c i arg2 harg2 arg3 harg3 arg4 harg4 arg5 harg5 arg6 harg6 arg7 harg7 arg8 harg8 hc0 x0 x1 x2 xs0 xs1 = k0_pay4 x0 xs0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  rw [View.canon_unit_zero hz4]
  simp only [View.readAt_eq_ld, harg2.read_unread, harg7.read_unread, View.ld_unit_zero (S := S1x1x256x64) hz4,
    View.ld_unit_zero (S := S4096x64) hz2]

/-- … and in the output block the product of that payload with the value rows the other scratch carries. -/
theorem out_B (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x1x256x64 .f32) (x1 : Vec F S1x1x4096x64 .f32) (x2 : Vec F S1x1x4096x64 .f32) (xs0 : Vec F S4096x64 .bf16) (xs1 : Vec F S4096x64 .bf16) :
    out0_B_3 c i arg2 harg2 arg3 harg3 arg4 harg4 arg5 harg5 arg6 harg6 arg7 harg7 arg8 harg8 hc0 x0 x1 x2 xs0 xs1 = k0_pay5 x0 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  rw [View.canon_unit_zero hz4]
  simp only [View.readAt_eq_ld, harg2.read_unread, harg7.read_unread, harg8.read_unread, View.ld_unit_zero (S := S1x1x256x64) hz4,
    View.ld_unit_zero (S := S4096x64) hz2]

/-- At a head's first query block the body first stores the head's key rows into the scratch … -/
theorem keys_A (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x1x256x64 .f32) (x1 : Vec F S1x1x4096x64 .f32) (x2 : Vec F S1x1x4096x64 .f32) :
    sout0_A_0 c i arg2 harg2 arg3 harg3 arg4 harg4 arg5 harg5 arg6 harg6 arg7 harg7 arg8 harg8 hc0 x0 x1 x2 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread, View.ld_unit_zero (S := S1x1x4096x64) hz4]

/-- … and its value rows into the other, -/
theorem values_A (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x1x256x64 .f32) (x1 : Vec F S1x1x4096x64 .f32) (x2 : Vec F S1x1x4096x64 .f32) :
    sout0_A_1 c i arg2 harg2 arg3 harg3 arg4 harg4 arg5 harg5 arg6 harg6 arg7 harg7 arg8 harg8 hc0 x0 x1 x2 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x1x4096x64) hz4]

/-- then reads both back: the score block is the softmax payload over the key rows just stored, -/
theorem score_A (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x1x256x64 .f32) (x1 : Vec F S1x1x4096x64 .f32) (x2 : Vec F S1x1x4096x64 .f32) :
    out0_A_4 c i arg2 harg2 arg3 harg3 arg4 harg4 arg5 harg5 arg6 harg6 arg7 harg7 arg8 harg8 hc0 x0 x1 x2 = k0_pay4 x0 (k0_pay1 x1) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz4, View.readCov_unit_zero (S := S4096x64) _ hz2]
  simp only [View.readAt_eq_ld, harg2.read_unread, harg3.read_unread, View.ld_unit_zero (S := S1x1x256x64) hz4,
    View.ld_unit_zero (S := S1x1x4096x64) hz4]

/-- and the output block its product with the value rows just stored. -/
theorem out_A (c : Dev nD) (i : grid0.Coords) (arg2 : Memref sig .tc .vmem S1x1x256x64 .f32) (harg2 : arg2.IsWhole) (arg3 : Memref sig .tc .vmem S1x1x4096x64 .f32) (harg3 : arg3.IsWhole) (arg4 : Memref sig .tc .vmem S1x1x4096x64 .f32) (harg4 : arg4.IsWhole) (arg5 : Memref sig .tc .vmem S1x1x256x64 .f32) (harg5 : arg5.IsWhole) (arg6 : Memref sig .tc .vmem S1x1x256x4096 .f32) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x1x256x64 .f32) (x1 : Vec F S1x1x4096x64 .f32) (x2 : Vec F S1x1x4096x64 .f32) :
    out0_A_3 c i arg2 harg2 arg3 harg3 arg4 harg4 arg5 harg5 arg6 harg6 arg7 harg7 arg8 harg8 hc0 x0 x1 x2 = k0_pay5 x0 (k0_pay1 x1) (k0_pay2 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz4, View.readCov_unit_zero (S := S4096x64) _ hz2, View.readCov_unit_zero (S := S4096x64) _ hz2]
  simp only [View.readAt_eq_ld, harg2.read_unread, harg3.read_unread, harg4.read_unread, View.ld_unit_zero (S := S1x1x256x64) hz4,
    View.ld_unit_zero (S := S1x1x4096x64) hz4]

end Cert.KernelIdeal.Pieces

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.Payload.lean ====
/-
  The body's arithmetic, read one entry at a time on the extended reals.

  From a block x of 256 query rows and the 4096 key rows ks the body forms the logits ∑_d (x[r,d] · s) · ks[c,d]
  (s the scale word), takes each row's maximum from -∞, exponentiates the differences, sums each row, and divides: entry
  (r, c) of the score block is the softmax of row r's logits at c. The output block's entry (r, d) is the sum over c
  of score (r, c) · vs[c, d] for the value rows vs. What the body copies into its scratch buffers is the key rows and
  the value rows themselves: on the extended reals a change of float format is the identity.
-/
import proofs.«182152_j69741678952654_2_alg».proof.Proof.Gen.KernelIdeal.Skeleton
import proofs.«182152_j69741678952654_2_alg».proof.Proof.Softmax
import proofs.«182152_j69741678952654_2_alg».proof.Proof.LibColumns
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx

/-- The logit of row r of a query block against key row c: the query scaled first. -/
def blockLogit (x : (⟨4, ![1, 1, 256, 64]⟩ : Shape).Idx → EReal) (ks : (⟨2, ![4096, 64]⟩ : Shape).Idx → EReal)
    (r : Fin 256) (c : Fin 4096) : EReal :=
  ∑ d : Fin 64, (x (ix4 (0 : Fin 1) (0 : Fin 1) r d) * scaleW) * ks (ix2 c d)

end Cert.Attn

namespace Cert.KernelIdeal.Payload

open Cert.KernelIdeal Cert.KernelIdeal.Gen Idealize.ShloMosaic Idealize.ShloMosaic.ValueIdx Cert.Attn

/-! ## The stages of the score payload -/

/-- The query block with its two unit axes dropped, scaled. -/
def scaledQ (x0 : FVec Ideal S1x1x256x64 .f32) : FVec Ideal S256x64 .bf16 :=
  truncf .bf16 (mulf (shapeCast S256x64 x0 shapeCasts_S1x1x256x64_S256x64) (broadcast S256x64 (Scalar.ofBits .f32 0x3E000000#32))) bitsLt_bf16_f32

/-- The logits: the scaled queries against the key rows. -/
def logits (x0 : FVec Ideal S1x1x256x64 .f32) (ks : FVec Ideal S4096x64 .bf16) : FVec Ideal S256x4096 .f32 :=
  matmul (F := Ideal) dot_S256x64_S4096x64_S256x4096_1_1_0_0_n_n none (scaledQ x0) ks (constant S256x4096 .f32 0x00000000#32)

/-- Each row's maximum, spread back along the row. -/
def maxCol (l : FVec Ideal S256x4096 .f32) (hφ : FKind.Formats .f32) (hm : (0xFF800000#32 : BitVec (FTy.bits .f32)) = FKind.maximumf.neutral .f32 hφ) : FVec Ideal S256x4096 .f32 :=
  broadcastTo S256x4096 (shapeCast S256x1 (multiReduction .maximumf [1] S256 l 0xFF800000#32 reduces_S256x4096_S256 hφ hm) shapeCasts_S256_S256x1) broadcasts_S256x1_S256x4096

/-- exp of each entry less its row's maximum. -/
def expRows (l : FVec Ideal S256x4096 .f32) (hφ : FKind.Formats .f32) (hm : (0xFF800000#32 : BitVec (FTy.bits .f32)) = FKind.maximumf.neutral .f32 hφ) : FVec Ideal S256x4096 .f32 := exp (subf l (maxCol l hφ hm))

/-- Each row's sum, spread back along the row. -/
def sumCol (e : FVec Ideal S256x4096 .f32) (hφ : FKind.Formats .f32) (hs : (0x00000000#32 : BitVec (FTy.bits .f32)) = FKind.add.neutral .f32 hφ) : FVec Ideal S256x4096 .f32 :=
  broadcastTo S256x4096 (shapeCast S256x1 (multiReduction .add [1] S256 e 0x00000000#32 reduces_S256x4096_S256 hφ hs) shapeCasts_S256_S256x1) broadcasts_S256x1_S256x4096

/-- The score payload is these stages composed. -/
theorem pay3_eq (x0 : FVec Ideal S1x1x256x64 .f32) (ks : FVec Ideal S4096x64 .bf16) :
    k0_pay3 (F := Ideal) x0 ks = divf (expRows (logits x0 ks) (.inl rfl) rfl) (sumCol (expRows (logits x0 ks) (.inl rfl) rfl) (.inl rfl) rfl) := rfl

theorem scaledQ_apply (x0 : FVec Ideal S1x1x256x64 .f32) (r : Fin 256) (d : Fin 64) :
    scaledQ x0 (ix2 r d) = x0 (ix4 (0 : Fin 1) (0 : Fin 1) r d) * scaleW := by
  show shapeCast S256x64 x0 shapeCasts_S1x1x256x64_S256x64 (ix2 r d) * Ideal.ofBits .f32 0x3E000000#32 = _
  rw [shapeCast_apply x0 shapeCasts_S1x1x256x64_S256x64 (ix2 r d) (ix4 (0 : Fin 1) (0 : Fin 1) r d) (by
    rw [Shape.rowMajor_val_four, Shape.rowMajor_val_two]
    show ((0 * 1 + 0) * 256 + r.val) * 64 + d.val = r.val * 64 + d.val
    omega)]

theorem lhs1_0 (j : S256x4096.Idx) (q : dot_S256x64_S4096x64_S256x4096_1_1_0_0_n_n.contr.Idx) : (dot_S256x64_S4096x64_S256x4096_1_1_0_0_n_n.lhsIdx j q 0).val = (j 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem rhs1_0 (j : S256x4096.Idx) (q : dot_S256x64_S4096x64_S256x4096_1_1_0_0_n_n.contr.Idx) : (dot_S256x64_S4096x64_S256x4096_1_1_0_0_n_n.rhsIdx j q 0).val = (j 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl

theorem logits_apply (x0 : FVec Ideal S1x1x256x64 .f32) (ks : FVec Ideal S4096x64 .bf16) (r : Fin 256) (c : Fin 4096) :
    logits x0 ks (ix2 r c) = blockLogit x0 ks r c := by
  unfold logits blockLogit
  simp only [matmul]
  rw [Ideal.matmul_constant_zero_apply]
  rw [Cert.LibColumns.sum_contr1 dot_S256x64_S4096x64_S256x4096_1_1_0_0_n_n 64 rfl rfl (scaledQ x0) ks (ix2 r c) (fun d => ix2 r d) (fun d => ix2 c d)
    (fun d => funext fun a => Fin.ext (by
      match a with
      | ⟨0, _⟩ => exact lhs1_0 _ _
      | ⟨1, _⟩ => exact (dot_S256x64_S4096x64_S256x4096_1_1_0_0_n_n.lhsIdx_val_of_single rfl _ _).trans (contrEquiv1_symm_val dot_S256x64_S4096x64_S256x4096_1_1_0_0_n_n 64 rfl rfl d)))
    (fun d => funext fun a => Fin.ext (by
      match a with
      | ⟨0, _⟩ => exact rhs1_0 _ _
      | ⟨1, _⟩ => exact (dot_S256x64_S4096x64_S256x4096_1_1_0_0_n_n.rhsIdx_val_of_single rfl _ _).trans (contrEquiv1_symm_val dot_S256x64_S4096x64_S256x4096_1_1_0_0_n_n 64 rfl rfl d)))]
  exact Finset.sum_congr rfl fun d _ => by rw [scaledQ_apply]

theorem maxCol_apply (l : FVec Ideal S256x4096 .f32) (hφ : FKind.Formats .f32) (hm : (0xFF800000#32 : BitVec (FTy.bits .f32)) = FKind.maximumf.neutral .f32 hφ) (r : Fin 256) (c : Fin 4096) :
    maxCol l hφ hm (ix2 r c) = rowMax (fun c' => l (ix2 r c')) := by
  unfold maxCol
  rw [Cert.LibColumns.broadcastTo_a1_ab_apply, Cert.LibColumns.shapeCast_a_a1_apply, Ideal.multiReduction_maximumf_single]
  show Finset.fold max negInfW (fun c' : Fin 4096 => l (reduces_S256x4096_S256.lift (ix1 r) c')) Finset.univ
    = Finset.fold max negInfW (fun c' : Fin 4096 => l (ix2 r c')) Finset.univ
  exact congrArg (fun f : Fin 4096 → EReal => Finset.fold max negInfW f Finset.univ)
    (funext fun c' => congrArg l (funext fun a => Fin.ext (by match a with | ⟨0, _⟩ => rfl | ⟨1, _⟩ => rfl)))

theorem sumCol_apply (e : FVec Ideal S256x4096 .f32) (hφ : FKind.Formats .f32) (hs : (0x00000000#32 : BitVec (FTy.bits .f32)) = FKind.add.neutral .f32 hφ) (r : Fin 256) (c : Fin 4096) :
    sumCol e hφ hs (ix2 r c) = ∑ c' : Fin 4096, e (ix2 r c') := by
  unfold sumCol
  rw [Cert.LibColumns.broadcastTo_a1_ab_apply, Cert.LibColumns.shapeCast_a_a1_apply, Ideal.multiReduction_add_single]
  exact Finset.sum_congr rfl fun c' _ => congrArg e (funext fun a => Fin.ext (by match a with | ⟨0, _⟩ => rfl | ⟨1, _⟩ => rfl))

theorem expRows_apply (l : FVec Ideal S256x4096 .f32) (hφ : FKind.Formats .f32) (hm : (0xFF800000#32 : BitVec (FTy.bits .f32)) = FKind.maximumf.neutral .f32 hφ) (r : Fin 256) (c : Fin 4096) :
    expRows l hφ hm (ix2 r c) = expShift (fun c' => l (ix2 r c')) c := by
  show Ideal.exp (l (ix2 r c) - maxCol l hφ hm (ix2 r c)) = _
  rw [maxCol_apply]
  rfl

/-- The composed stages at (r, c): the softmax of row r's logits. -/
theorem stages_apply (x0 : FVec Ideal S1x1x256x64 .f32) (ks : FVec Ideal S4096x64 .bf16) (hφ : FKind.Formats .f32) (hm : (0xFF800000#32 : BitVec (FTy.bits .f32)) = FKind.maximumf.neutral .f32 hφ) (hs : (0x00000000#32 : BitVec (FTy.bits .f32)) = FKind.add.neutral .f32 hφ) (r : Fin 256) (c : Fin 4096) :
    divf (expRows (logits x0 ks) hφ hm) (sumCol (expRows (logits x0 ks) hφ hm) hφ hs) (ix2 r c) = softmaxRow (blockLogit x0 ks r) c := by
  show Ideal.div (expRows (logits x0 ks) hφ hm (ix2 r c)) (sumCol (expRows (logits x0 ks) hφ hm) hφ hs (ix2 r c)) = _
  rw [sumCol_apply]
  simp only [expRows_apply]
  rw [show (fun c' => logits x0 ks (ix2 r c')) = blockLogit x0 ks r from funext fun c' => logits_apply x0 ks r c']
  rfl

/-- The score payload at (r, c): the softmax of row r's logits. -/
theorem pay3_apply (x0 : FVec Ideal S1x1x256x64 .f32) (ks : FVec Ideal S4096x64 .bf16) (r : Fin 256) (c : Fin 4096) :
    k0_pay3 (F := Ideal) x0 ks (ix2 r c) = softmaxRow (blockLogit x0 ks r) c :=
  (congrFun (pay3_eq x0 ks) (ix2 r c)).trans (stages_apply x0 ks _ _ _ r c)

/-- The stored score block at (0, 0, r, c). -/
theorem pay4_apply (x0 : FVec Ideal S1x1x256x64 .f32) (ks : FVec Ideal S4096x64 .bf16) (r : Fin 256) (c : Fin 4096) :
    k0_pay4 (F := Ideal) x0 ks (ix4 (0 : Fin 1) (0 : Fin 1) r c) = softmaxRow (blockLogit x0 ks r) c := by
  unfold k0_pay4
  show shapeCast S1x1x256x4096 (k0_pay3 (F := Ideal) x0 ks) shapeCasts_S256x4096_S1x1x256x4096 (ix4 (0 : Fin 1) (0 : Fin 1) r c) = _
  rw [shapeCast_apply (k0_pay3 (F := Ideal) x0 ks) shapeCasts_S256x4096_S1x1x256x4096 (ix4 (0 : Fin 1) (0 : Fin 1) r c) (ix2 r c) (by
    rw [Shape.rowMajor_val_four, Shape.rowMajor_val_two]
    show r.val * 4096 + c.val = ((0 * 1 + 0) * 256 + r.val) * 4096 + c.val
    omega)]
  exact pay3_apply x0 ks r c

theorem lhs2_0 (j : S256x64.Idx) (q : dot_S256x4096_S4096x64_S256x64_1_0_0_1_n_n.contr.Idx) : (dot_S256x4096_S4096x64_S256x64_1_0_0_1_n_n.lhsIdx j q 0).val = (j 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem rhs2_1 (j : S256x64.Idx) (q : dot_S256x4096_S4096x64_S256x64_1_0_0_1_n_n.contr.Idx) : (dot_S256x4096_S4096x64_S256x64_1_0_0_1_n_n.rhsIdx j q 1).val = (j 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The stored output block at (0, 0, r, d): the score row against column d of the value rows. -/
theorem pay5_apply (x0 : FVec Ideal S1x1x256x64 .f32) (ks vs : FVec Ideal S4096x64 .bf16) (r : Fin 256) (d : Fin 64) :
    k0_pay5 (F := Ideal) x0 ks vs (ix4 (0 : Fin 1) (0 : Fin 1) r d) = ∑ c : Fin 4096, softmaxRow (blockLogit x0 ks r) c * vs (ix2 c d) := by
  unfold k0_pay5
  show shapeCast S1x1x256x64 (matmul (F := Ideal) dot_S256x4096_S4096x64_S256x64_1_0_0_1_n_n none (truncf .bf16 (k0_pay3 (F := Ideal) x0 ks) bitsLt_bf16_f32) vs (constant S256x64 .f32 0x00000000#32)) shapeCasts_S256x64_S1x1x256x64 (ix4 (0 : Fin 1) (0 : Fin 1) r d) = _
  rw [shapeCast_apply _ shapeCasts_S256x64_S1x1x256x64 (ix4 (0 : Fin 1) (0 : Fin 1) r d) (ix2 r d) (by
    rw [Shape.rowMajor_val_four, Shape.rowMajor_val_two]
    show r.val * 64 + d.val = ((0 * 1 + 0) * 256 + r.val) * 64 + d.val
    omega)]
  simp only [matmul]
  rw [Ideal.matmul_constant_zero_apply]
  rw [Cert.LibColumns.sum_contr1 dot_S256x4096_S4096x64_S256x64_1_0_0_1_n_n 4096 rfl rfl _ vs (ix2 r d) (fun c => ix2 r c) (fun c => ix2 c d)
    (fun c => funext fun a => Fin.ext (by
      match a with
      | ⟨0, _⟩ => exact lhs2_0 _ _
      | ⟨1, _⟩ => exact (dot_S256x4096_S4096x64_S256x64_1_0_0_1_n_n.lhsIdx_val_of_single rfl _ _).trans (contrEquiv1_symm_val dot_S256x4096_S4096x64_S256x64_1_0_0_1_n_n 4096 rfl rfl c)))
    (fun c => funext fun a => Fin.ext (by
      match a with
      | ⟨0, _⟩ => exact (dot_S256x4096_S4096x64_S256x64_1_0_0_1_n_n.rhsIdx_val_of_single rfl _ _).trans (contrEquiv1_symm_val dot_S256x4096_S4096x64_S256x64_1_0_0_1_n_n 4096 rfl rfl c)
      | ⟨1, _⟩ => exact rhs2_1 _ _))]
  exact Finset.sum_congr rfl fun c _ => by
    show k0_pay3 (F := Ideal) x0 ks (ix2 r c) * vs (ix2 c d) = _
    rw [pay3_apply]

/-- What is copied into the first scratch: the key rows, entry by entry. -/
theorem pay1_apply (x1 : FVec Ideal S1x1x4096x64 .f32) (c : Fin 4096) (d : Fin 64) :
    k0_pay1 (F := Ideal) x1 (ix2 c d) = x1 (ix4 (0 : Fin 1) (0 : Fin 1) c d) := by
  unfold k0_pay1
  show shapeCast S4096x64 (truncf .bf16 (shapeCast S4096x64 x1 shapeCasts_S1x1x4096x64_S4096x64) bitsLt_bf16_f32) shapeCasts_S4096x64_S4096x64 (ix2 c d) = _
  rw [shapeCast_self]
  show shapeCast S4096x64 x1 shapeCasts_S1x1x4096x64_S4096x64 (ix2 c d) = _
  rw [shapeCast_apply x1 shapeCasts_S1x1x4096x64_S4096x64 (ix2 c d) (ix4 (0 : Fin 1) (0 : Fin 1) c d) (by
    rw [Shape.rowMajor_val_four, Shape.rowMajor_val_two]
    show ((0 * 1 + 0) * 4096 + c.val) * 64 + d.val = c.val * 64 + d.val
    omega)]

/-- What is copied into the second scratch: the value rows, entry by entry. -/
theorem pay2_apply (x2 : FVec Ideal S1x1x4096x64 .f32) (c : Fin 4096) (d : Fin 64) :
    k0_pay2 (F := Ideal) x2 (ix2 c d) = x2 (ix4 (0 : Fin 1) (0 : Fin 1) c d) := by
  unfold k0_pay2
  show shapeCast S4096x64 (truncf .bf16 (shapeCast S4096x64 x2 shapeCasts_S1x1x4096x64_S4096x64) bitsLt_bf16_f32) shapeCasts_S4096x64_S4096x64 (ix2 c d) = _
  rw [shapeCast_self]
  show shapeCast S4096x64 x2 shapeCasts_S1x1x4096x64_S4096x64 (ix2 c d) = _
  rw [shapeCast_apply x2 shapeCasts_S1x1x4096x64_S4096x64 (ix2 c d) (ix4 (0 : Fin 1) (0 : Fin 1) c d) (by
    rw [Shape.rowMajor_val_four, Shape.rowMajor_val_two]
    show ((0 * 1 + 0) * 4096 + c.val) * 64 + d.val = c.val * 64 + d.val
    omega)]

end Cert.KernelIdeal.Payload

end
-- ==== Proof.Blocks.lean ====
/-
  Where the blocks of a grid point sit in the arrays, and what the scratch buffers carry.

  The grid is 16 heads by 16 query blocks, run in row-major order: point t is head t / 16, query block t % 16. At
  point t the query window, the output window and the score window hold rows (t % 16)·256 … +255 of head t / 16;
  the key and value windows hold all 4096 rows of head t / 16, whatever the query block. The body refills its two
  scratch buffers only at a head's first query block, so after every point they hold the key rows and the value rows
  of that point's head: at the first query block because the body has just stored them, afterwards because the point
  before had the same head and the buffers were left alone (Proof/Carried.lean).
-/
import proofs.«182152_j69741678952654_2_alg».proof.Proof.Gen.KernelIdeal.Frame
import proofs.«182152_j69741678952654_2_alg».proof.Proof.Pieces
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The printed index maps in closed form, decided once over the 256 grid points: the head is t / 16, the query
    block t % 16; the key and value windows do not move with the query block. -/
theorem idx_facts : ∀ t : Fin cfg0.N,
    (win0_0.index t (0 : Fin 4) = 0 ∧ win0_0.index t (1 : Fin 4) = t.val / 16 ∧ win0_0.index t (2 : Fin 4) = t.val % 16 ∧ win0_0.index t (3 : Fin 4) = 0)
    ∧ (win0_1.index t (0 : Fin 4) = 0 ∧ win0_1.index t (1 : Fin 4) = t.val / 16 ∧ win0_1.index t (2 : Fin 4) = 0 ∧ win0_1.index t (3 : Fin 4) = 0)
    ∧ (win0_2.index t (0 : Fin 4) = 0 ∧ win0_2.index t (1 : Fin 4) = t.val / 16 ∧ win0_2.index t (2 : Fin 4) = 0 ∧ win0_2.index t (3 : Fin 4) = 0)
    ∧ (win0_3.index t (0 : Fin 4) = 0 ∧ win0_3.index t (1 : Fin 4) = t.val / 16 ∧ win0_3.index t (2 : Fin 4) = t.val % 16 ∧ win0_3.index t (3 : Fin 4) = 0)
    ∧ (win0_4.index t (0 : Fin 4) = 0 ∧ win0_4.index t (1 : Fin 4) = t.val / 16 ∧ win0_4.index t (2 : Fin 4) = t.val % 16 ∧ win0_4.index t (3 : Fin 4) = 0) :=
  (by decide +kernel : ∀ t : Fin grid0.N, _)

theorem N_eq : cfg0.N = 256 := N_0

/-- The head of point t. -/
def hd (t : Fin cfg0.N) : Fin 16 := ⟨t.val / 16, by have := lt_of_lt_of_eq t.isLt N_eq; omega⟩
/-- Row r of point t's query block, as a row of the head. -/
def row (t : Fin cfg0.N) (r : Fin 256) : Fin 4096 := ⟨t.val % 16 * 256 + r.val, by have := r.isLt; omega⟩

/-- The query block at point t, entry (r, d): the query array at (head, row, d). -/
theorem iblk0_apply (c : Dev nD) (t : Fin cfg0.N) (r : Fin 256) (d : Fin 64) :
    iblk m c 0 t (ix4 (0 : Fin 1) (0 : Fin 1) r d) = V m c main_arg0 (ix4 (0 : Fin 1) (hd t) (row t r) d) := by
  obtain ⟨⟨e0, e1, e2, e3⟩, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = 0; omega
  | ⟨1, _⟩ => show win0_0.index t (1 : Fin 4) * 1 + 1 * 0 = t.val / 16; omega
  | ⟨2, _⟩ => show win0_0.index t (2 : Fin 4) * 256 + 1 * r.val = t.val % 16 * 256 + r.val; omega
  | ⟨3, _⟩ => show win0_0.index t (3 : Fin 4) * 64 + 1 * d.val = d.val; omega

/-- The key block at point t, entry (c', d): the key array at (head, c', d). -/
theorem iblk1_apply (c : Dev nD) (t : Fin cfg0.N) (c' : Fin 4096) (d : Fin 64) :
    iblk m c 1 t (ix4 (0 : Fin 1) (0 : Fin 1) c' d) = V m c main_arg1 (ix4 (0 : Fin 1) (hd t) c' d) := by
  obtain ⟨-, ⟨e0, e1, e2, e3⟩, -⟩ := idx_facts t
  show V m c main_arg1 (((cfg0.win 1).blk t).view.emb (ix4 (0 : Fin 1) (0 : Fin 1) c' d)) = _
  refine congrArg (V m c main_arg1) (funext fun a => Fin.ext ?_)
  match a with
  | ⟨0, _⟩ => show win0_1.index t (0 : Fin 4) * 1 + 1 * 0 = 0; omega
  | ⟨1, _⟩ => show win0_1.index t (1 : Fin 4) * 1 + 1 * 0 = t.val / 16; omega
  | ⟨2, _⟩ => show win0_1.index t (2 : Fin 4) * 4096 + 1 * c'.val = c'.val; omega
  | ⟨3, _⟩ => show win0_1.index t (3 : Fin 4) * 64 + 1 * d.val = d.val; omega

/-- The value block at point t, entry (c', d): the value array at (head, c', d). -/
theorem iblk2_apply (c : Dev nD) (t : Fin cfg0.N) (c' : Fin 4096) (d : Fin 64) :
    iblk m c 2 t (ix4 (0 : Fin 1) (0 : Fin 1) c' d) = V m c main_arg2 (ix4 (0 : Fin 1) (hd t) c' d) := by
  obtain ⟨-, -, ⟨e0, e1, e2, e3⟩, -⟩ := idx_facts t
  show V m c main_arg2 (((cfg0.win 2).blk t).view.emb (ix4 (0 : Fin 1) (0 : Fin 1) c' d)) = _
  refine congrArg (V m c main_arg2) (funext fun a => Fin.ext ?_)
  match a with
  | ⟨0, _⟩ => show win0_2.index t (0 : Fin 4) * 1 + 1 * 0 = 0; omega
  | ⟨1, _⟩ => show win0_2.index t (1 : Fin 4) * 1 + 1 * 0 = t.val / 16; omega
  | ⟨2, _⟩ => show win0_2.index t (2 : Fin 4) * 4096 + 1 * c'.val = c'.val; omega
  | ⟨3, _⟩ => show win0_2.index t (3 : Fin 4) * 64 + 1 * d.val = d.val; omega

/-- Entry (r, d) of point t's output block sits at (head, row, d) of the output array. -/
theorem emb3 (t : Fin cfg0.N) (r : Fin 256) (d : Fin 64) :
    ((cfg0.win 3).blk t).view.emb (ix4 (0 : Fin 1) (0 : Fin 1) r d) = ix4 (0 : Fin 1) (hd t) (row t r) d := by
  obtain ⟨-, -, -, ⟨e0, e1, e2, e3⟩, -⟩ := idx_facts t
  refine funext fun a => Fin.ext ?_
  match a with
  | ⟨0, _⟩ => show win0_3.index t (0 : Fin 4) * 1 + 1 * 0 = 0; omega
  | ⟨1, _⟩ => show win0_3.index t (1 : Fin 4) * 1 + 1 * 0 = t.val / 16; omega
  | ⟨2, _⟩ => show win0_3.index t (2 : Fin 4) * 256 + 1 * r.val = t.val % 16 * 256 + r.val; omega
  | ⟨3, _⟩ => show win0_3.index t (3 : Fin 4) * 64 + 1 * d.val = d.val; omega

/-- Entry (r, c') of point t's score block sits at (head, row, c') of the score array. -/
theorem emb4 (t : Fin cfg0.N) (r : Fin 256) (c' : Fin 4096) :
    ((cfg0.win 4).blk t).view.emb (ix4 (0 : Fin 1) (0 : Fin 1) r c') = ix4 (0 : Fin 1) (hd t) (row t r) c' := by
  obtain ⟨-, -, -, -, ⟨e0, e1, e2, e3⟩⟩ := idx_facts t
  refine funext fun a => Fin.ext ?_
  match a with
  | ⟨0, _⟩ => show win0_4.index t (0 : Fin 4) * 1 + 1 * 0 = 0; omega
  | ⟨1, _⟩ => show win0_4.index t (1 : Fin 4) * 1 + 1 * 0 = t.val / 16; omega
  | ⟨2, _⟩ => show win0_4.index t (2 : Fin 4) * 256 + 1 * r.val = t.val % 16 * 256 + r.val; omega
  | ⟨3, _⟩ => show win0_4.index t (3 : Fin 4) * 4096 + 1 * c'.val = c'.val; omega

/-- Within a head the key window does not move: a point that is not a head's first holds the key block of the point
    before. -/
theorem iblk1_succ (c : Dev nD) (n : ℕ) (h : n + 1 < cfg0.N) (h0 : ¬(n + 1) % 16 = 0) :
    iblk m c 1 ⟨n + 1, h⟩ = iblk m c 1 ⟨n, Nat.lt_of_succ_lt h⟩ := by
  obtain ⟨-, ⟨e0, e1, e2, e3⟩, -⟩ := idx_facts ⟨n + 1, h⟩
  obtain ⟨-, ⟨f0, f1, f2, f3⟩, -⟩ := idx_facts ⟨n, Nat.lt_of_succ_lt h⟩
  dsimp only at e1 f1
  refine funext fun (y : S1x1x4096x64.Idx) => ?_
  show V m c main_arg1 (((cfg0.win 1).blk ⟨n + 1, h⟩).view.emb y) = V m c main_arg1 (((cfg0.win 1).blk ⟨n, Nat.lt_of_succ_lt h⟩).view.emb y)
  refine congrArg (V m c main_arg1) (funext fun a => Fin.ext ?_)
  match a with
  | ⟨0, _⟩ => show win0_1.index ⟨n + 1, h⟩ (0 : Fin 4) * 1 + 1 * (y 0).val = win0_1.index ⟨n, Nat.lt_of_succ_lt h⟩ (0 : Fin 4) * 1 + 1 * (y 0).val; omega
  | ⟨1, _⟩ => show win0_1.index ⟨n + 1, h⟩ (1 : Fin 4) * 1 + 1 * (y 1).val = win0_1.index ⟨n, Nat.lt_of_succ_lt h⟩ (1 : Fin 4) * 1 + 1 * (y 1).val; omega
  | ⟨2, _⟩ => show win0_1.index ⟨n + 1, h⟩ (2 : Fin 4) * 4096 + 1 * (y 2).val = win0_1.index ⟨n, Nat.lt_of_succ_lt h⟩ (2 : Fin 4) * 4096 + 1 * (y 2).val; omega
  | ⟨3, _⟩ => show win0_1.index ⟨n + 1, h⟩ (3 : Fin 4) * 64 + 1 * (y 3).val = win0_1.index ⟨n, Nat.lt_of_succ_lt h⟩ (3 : Fin 4) * 64 + 1 * (y 3).val; omega

/-- Likewise the value window. -/
theorem iblk2_succ (c : Dev nD) (n : ℕ) (h : n + 1 < cfg0.N) (h0 : ¬(n + 1) % 16 = 0) :
    iblk m c 2 ⟨n + 1, h⟩ = iblk m c 2 ⟨n, Nat.lt_of_succ_lt h⟩ := by
  obtain ⟨-, -, ⟨e0, e1, e2, e3⟩, -⟩ := idx_facts ⟨n + 1, h⟩
  obtain ⟨-, -, ⟨f0, f1, f2, f3⟩, -⟩ := idx_facts ⟨n, Nat.lt_of_succ_lt h⟩
  dsimp only at e1 f1
  refine funext fun (y : S1x1x4096x64.Idx) => ?_
  show V m c main_arg2 (((cfg0.win 2).blk ⟨n + 1, h⟩).view.emb y) = V m c main_arg2 (((cfg0.win 2).blk ⟨n, Nat.lt_of_succ_lt h⟩).view.emb y)
  refine congrArg (V m c main_arg2) (funext fun a => Fin.ext ?_)
  match a with
  | ⟨0, _⟩ => show win0_2.index ⟨n + 1, h⟩ (0 : Fin 4) * 1 + 1 * (y 0).val = win0_2.index ⟨n, Nat.lt_of_succ_lt h⟩ (0 : Fin 4) * 1 + 1 * (y 0).val; omega
  | ⟨1, _⟩ => show win0_2.index ⟨n + 1, h⟩ (1 : Fin 4) * 1 + 1 * (y 1).val = win0_2.index ⟨n, Nat.lt_of_succ_lt h⟩ (1 : Fin 4) * 1 + 1 * (y 1).val; omega
  | ⟨2, _⟩ => show win0_2.index ⟨n + 1, h⟩ (2 : Fin 4) * 4096 + 1 * (y 2).val = win0_2.index ⟨n, Nat.lt_of_succ_lt h⟩ (2 : Fin 4) * 4096 + 1 * (y 2).val; omega
  | ⟨3, _⟩ => show win0_2.index ⟨n + 1, h⟩ (3 : Fin 4) * 64 + 1 * (y 3).val = win0_2.index ⟨n, Nat.lt_of_succ_lt h⟩ (3 : Fin 4) * 64 + 1 * (y 3).val; omega

end Cert.KernelIdeal.Blocks

end
-- ==== Proof.Carried.lean ====
/-
  What the two scratch buffers carry from point to point.

  The body refills the scratch buffers — a copy of the head's key rows, a copy of its value rows — only at a head's
  first query block. So after every point they hold the copies of that point's own key block and value block: at a
  head's first point because the body has just stored them, at any other point because it left them as the point
  before did, and the point before has the same head, hence the same key and value blocks.
-/
import proofs.«182152_j69741678952654_2_alg».proof.Proof.Gen.KernelIdeal.Frame
import proofs.«182152_j69741678952654_2_alg».proof.Proof.Pieces
import proofs.«182152_j69741678952654_2_alg».proof.Proof.Blocks

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- At a head's first point the scratch buffers end with the copies of that point's key block and value block. -/
theorem scratch_first (c : Dev nD) (t : Fin cfg0.N) (h0 : t.val % 16 = 0) :
    (outsAt0 m c t.val t.isLt).2.2.1 = k0_pay1 (iblk m c 1 t) ∧ (outsAt0 m c t.val t.isLt).2.2.2 = k0_pay2 (iblk m c 2 t) := by
  rw [outsAt0_A m c t h0]
  dsimp only
  exact ⟨Pieces.keys_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    Pieces.values_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)⟩

/-- At any other point they end as the point before left them. -/
theorem scratch_kept (c : Dev nD) (t : Fin cfg0.N) (h0 : ¬t.val % 16 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0]
  dsimp only [sout0_B_0, sout0_B_1]
  exact ⟨rfl, rfl⟩

/-- WHAT THE SCRATCH BUFFERS CARRY after point n: the copies of that point's key block and value block — by induction
    on the point: a head's first point stores them, every other point leaves them as the point before did, whose key
    and value blocks are the same. -/
theorem scratch_after (c : Dev nD) : ∀ (n : ℕ) (h : n < cfg0.N),
    (outsAt0 m c n h).2.2.1 = k0_pay1 (iblk m c 1 ⟨n, h⟩) ∧ (outsAt0 m c n h).2.2.2 = k0_pay2 (iblk m c 2 ⟨n, h⟩)
  | 0, h => scratch_first m c ⟨0, h⟩ rfl
  | n + 1, h => by
    by_cases h0 : (n + 1) % 16 = 0
    · exact scratch_first m c ⟨n + 1, h⟩ h0
    · have ih := scratch_after c n (Nat.lt_of_succ_lt h)
      have hk := scratch_kept m c ⟨n + 1, h⟩ h0
      exact ⟨hk.1.trans (ih.1.trans (congrArg k0_pay1 (iblk1_succ m c n h h0).symm)),
        hk.2.trans (ih.2.trans (congrArg k0_pay2 (iblk2_succ m c n h h0).symm))⟩

/-- So what the body FINDS in the scratch buffers at a point that is not a head's first — what the point before left —
    is the copy of this point's own key block and value block. -/
theorem scratch_before (c : Dev nD) (t : Fin cfg0.N) (h0 : ¬t.val % 16 = 0) :
    (outsAt0 m c (t.val - 1) (Nat.lt_of_le_of_lt (Nat.sub_le _ _) t.isLt)).2.2.1 = k0_pay1 (iblk m c 1 t)
    ∧ (outsAt0 m c (t.val - 1) (Nat.lt_of_le_of_lt (Nat.sub_le _ _) t.isLt)).2.2.2 = k0_pay2 (iblk m c 2 t) := by
  have hk := scratch_kept m c t h0
  have ha := scratch_after m c t.val t.isLt
  exact ⟨hk.1.symm.trans ha.1, hk.2.symm.trans ha.2⟩

end Cert.KernelIdeal.Blocks

end
-- ==== Proof.Result.lean ====
/-
  The kernel's two result arrays, as the specification's functions of the three argument arrays.

  At every grid point the body writes a 256 × 4096 block of the score array and a 256 × 64 block of the output array.
  Whatever the point, the key rows and value rows it works with are those of the point's head (read off the scratch
  buffers, which carry the head's copy: Proof/Carried.lean), so the score block is rows (t % 16)·256 … of head t / 16 of the softmax scores of the whole
  arrays, and the output block those rows of the scores against the head's value rows. The 256 blocks tile both
  arrays — the block that holds row i of head h is that of point 16·h + i / 256 — so after the run each array is the
  specification's function, entry by entry.
-/
import proofs.«182152_j69741678952654_2_alg».proof.Proof.Gen.KernelIdeal.Value
import proofs.«182152_j69741678952654_2_alg».proof.Proof.Softmax
import proofs.«182152_j69741678952654_2_alg».proof.Proof.Pieces
import proofs.«182152_j69741678952654_2_alg».proof.Proof.Payload
import proofs.«182152_j69741678952654_2_alg».proof.Proof.Blocks
import proofs.«182152_j69741678952654_2_alg».proof.Proof.Carried
import Idealize.ShloMosaic.Lib.ValueIdx
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)
open Cert.Attn Cert.KernelIdeal.Blocks Cert.KernelIdeal.Payload

variable (m : (ℓ : Loc nD τ sig) → Buf (Elt Ideal) ℓ) (ρ : Dev nD → PrngReg)

/-- The query, key and value arrays as the region finds them. -/
abbrev Q (c : Dev nD) : Arr := V m c main_arg0
abbrev K (c : Dev nD) : Arr := V m c main_arg1
abbrev W (c : Dev nD) : Arr := V m c main_arg2

/-- Row r of point t's query block against the carried key rows: the logits of row (t % 16)·256 + r of head t / 16. -/
theorem row_logits (c : Dev nD) (t : Fin cfg0.N) (r : Fin 256) :
    blockLogit (iblk m c 0 t) (k0_pay1 (F := Ideal) (iblk m c 1 t)) r = logit (Q m c) (K m c) (hd t) (row t r) := by
  funext c'
  unfold blockLogit logit
  refine Finset.sum_congr rfl fun d _ => ?_
  have e0 := iblk0_apply m c t r d
  have e1 := (pay1_apply (iblk m c 1 t) c' d).trans (iblk1_apply m c t c' d)
  rw [e0, e1]

/-- A block index of unit leading axes is its two trailing coordinates. -/
theorem eq_ix4_unit {a b : ℕ} (j : (⟨4, ![1, 1, a, b]⟩ : Shape).Idx) : j = ix4 (0 : Fin 1) (0 : Fin 1) (j 2) (j 3) := by
  funext x
  match x with
  | ⟨0, _⟩ => exact Fin.ext (Nat.lt_one_iff.mp (j 0).isLt)
  | ⟨1, _⟩ => exact Fin.ext (Nat.lt_one_iff.mp (j 1).isLt)
  | ⟨2, _⟩ => rfl
  | ⟨3, _⟩ => rfl

/-- The score block of a point, whichever case ran: rows of the specification's score array. -/
theorem score_block (c : Dev nD) (t : Fin cfg0.N) :
    (cfg0.win 4).cut (grid0.coords t) (k0_pay4 (F := Ideal) (iblk m c 0 t) (k0_pay1 (F := Ideal) (iblk m c 1 t)))
      = ((cfg0.win 4).blk t).view.read (Elt Ideal) (score (Q m c) (K m c)) := by
  refine funext fun (j : S1x1x256x4096.Idx) => ?_
  obtain ⟨r, c', rfl⟩ : ∃ (r : Fin 256) (c' : Fin 4096), j = ix4 (0 : Fin 1) (0 : Fin 1) r c' := ⟨j 2, j 3, eq_ix4_unit j⟩
  show k0_pay4 (F := Ideal) (iblk m c 0 t) (k0_pay1 (F := Ideal) (iblk m c 1 t)) (ix4 (0 : Fin 1) (0 : Fin 1) r c')
    = score (Q m c) (K m c) (((cfg0.win 4).blk t).view.emb (ix4 (0 : Fin 1) (0 : Fin 1) r c'))
  rw [emb4 t r c']
  refine (pay4_apply (iblk m c 0 t) (k0_pay1 (F := Ideal) (iblk m c 1 t)) r c').trans ?_
  rw [row_logits m c t r]
  rfl

/-- The output block of a point, whichever case ran: rows of the specification's output array. -/
theorem out_block (c : Dev nD) (t : Fin cfg0.N) :
    (cfg0.win 3).cut (grid0.coords t) (k0_pay5 (F := Ideal) (iblk m c 0 t) (k0_pay1 (F := Ideal) (iblk m c 1 t)) (k0_pay2 (F := Ideal) (iblk m c 2 t)))
      = ((cfg0.win 3).blk t).view.read (Elt Ideal) (out (Q m c) (K m c) (W m c)) := by
  refine funext fun (j : S1x1x256x64.Idx) => ?_
  obtain ⟨r, d, rfl⟩ : ∃ (r : Fin 256) (d : Fin 64), j = ix4 (0 : Fin 1) (0 : Fin 1) r d := ⟨j 2, j 3, eq_ix4_unit j⟩
  show k0_pay5 (F := Ideal) (iblk m c 0 t) (k0_pay1 (F := Ideal) (iblk m c 1 t)) (k0_pay2 (F := Ideal) (iblk m c 2 t)) (ix4 (0 : Fin 1) (0 : Fin 1) r d)
    = out (Q m c) (K m c) (W m c) (((cfg0.win 3).blk t).view.emb (ix4 (0 : Fin 1) (0 : Fin 1) r d))
  rw [emb3 t r d]
  refine (pay5_apply (iblk m c 0 t) (k0_pay1 (F := Ideal) (iblk m c 1 t)) (k0_pay2 (F := Ideal) (iblk m c 2 t)) r d).trans ?_
  rw [row_logits m c t r]
  show _ = ∑ c' : Fin 4096, score (Q m c) (K m c) (ix4 (0 : Fin 1) (hd t) (row t r) c') * W m c (ix4 (0 : Fin 1) (hd t) c' d)
  refine Finset.sum_congr rfl fun c' _ => ?_
  have e2 := (pay2_apply (iblk m c 2 t) c' d).trans (iblk2_apply m c t c' d)
  rw [e2]
  rfl

/-- WHAT POINT t WRITES BACK to the score array is block t of the specification's scores. -/
theorem flushed4_eq (c : Dev nD) (t : Fin cfg0.N) :
    (dats m 0 c).flushed 4 t = ((cfg0.win 4).blk t).view.read (Elt Ideal) (score (Q m c) (K m c)) := by
  by_cases h0 : t.val % 16 = 0
  · rw [Value.flushed4_A m c t h0, Pieces.score_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)]
    exact score_block m c t
  · rw [Value.flushed4_B m c t h0, Pieces.score_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, (scratch_before m c t h0).1]
    exact score_block m c t

/-- WHAT POINT t WRITES BACK to the output array is block t of the specification's output. -/
theorem flushed3_eq (c : Dev nD) (t : Fin cfg0.N) :
    (dats m 0 c).flushed 3 t = ((cfg0.win 3).blk t).view.read (Elt Ideal) (out (Q m c) (K m c) (W m c)) := by
  by_cases h0 : t.val % 16 = 0
  · rw [Value.flushed3_A m c t h0, Pieces.out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)]
    exact out_block m c t
  · rw [Value.flushed3_B m c t h0, Pieces.out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, (scratch_before m c t h0).1, (scratch_before m c t h0).2]
    exact out_block m c t

/-- The point whose blocks hold row i of head h. -/
def pointOf (h : Fin 16) (i : Fin 4096) : Fin cfg0.N := ⟨16 * h.val + i.val / 256, lt_of_lt_of_eq (by have := h.isLt; have := i.isLt; omega) N_eq.symm⟩

/-- Every entry of the score array lies in some point's block. -/
theorem cover4 (i : S1x16x4096x4096.Idx) : ∃ t : Fin cfg0.N, (cfg0.win 4).flush t = true ∧ i ∈ ((cfg0.win 4).blk t).view.set := by
  refine ⟨pointOf (i 1) (i 2), flush0_4 _, ?_⟩
  obtain ⟨-, -, -, -, ⟨e0, e1, e2, e3⟩⟩ := idx_facts (pointOf (i 1) (i 2))
  show i ∈ ((View.whole main_v0_1).slice (win0_4.rect (pointOf (i 1) (i 2)))).set
  rw [View.set_slice_whole, Rect.mem_set_unit]
  have h0 : (i 0).val < 1 := (i 0).isLt
  have h1 : (i 1).val < 16 := (i 1).isLt
  have h2 : (i 2).val < 4096 := (i 2).isLt
  have h3 : (i 3).val < 4096 := (i 3).isLt
  have hp : (pointOf (i 1) (i 2)).val = 16 * (i 1).val + (i 2).val / 256 := rfl
  intro a
  match a with
  | ⟨0, _⟩ => show win0_4.index (pointOf (i 1) (i 2)) (0 : Fin 4) * 1 ≤ (i 0).val ∧ (i 0).val < win0_4.index (pointOf (i 1) (i 2)) (0 : Fin 4) * 1 + 1; omega
  | ⟨1, _⟩ => show win0_4.index (pointOf (i 1) (i 2)) (1 : Fin 4) * 1 ≤ (i 1).val ∧ (i 1).val < win0_4.index (pointOf (i 1) (i 2)) (1 : Fin 4) * 1 + 1; omega
  | ⟨2, _⟩ => show win0_4.index (pointOf (i 1) (i 2)) (2 : Fin 4) * 256 ≤ (i 2).val ∧ (i 2).val < win0_4.index (pointOf (i 1) (i 2)) (2 : Fin 4) * 256 + 256; omega
  | ⟨3, _⟩ => show win0_4.index (pointOf (i 1) (i 2)) (3 : Fin 4) * 4096 ≤ (i 3).val ∧ (i 3).val < win0_4.index (pointOf (i 1) (i 2)) (3 : Fin 4) * 4096 + 4096; omega

/-- Every entry of the output array lies in some point's block. -/
theorem cover3 (i : S1x16x4096x64.Idx) : ∃ t : Fin cfg0.N, (cfg0.win 3).flush t = true ∧ i ∈ ((cfg0.win 3).blk t).view.set := by
  refine ⟨pointOf (i 1) (i 2), flush0_3 _, ?_⟩
  obtain ⟨-, -, -, ⟨e0, e1, e2, e3⟩, -⟩ := idx_facts (pointOf (i 1) (i 2))
  show i ∈ ((View.whole main_v0_0).slice (win0_3.rect (pointOf (i 1) (i 2)))).set
  rw [View.set_slice_whole, Rect.mem_set_unit]
  have h0 : (i 0).val < 1 := (i 0).isLt
  have h1 : (i 1).val < 16 := (i 1).isLt
  have h2 : (i 2).val < 4096 := (i 2).isLt
  have h3 : (i 3).val < 64 := (i 3).isLt
  have hp : (pointOf (i 1) (i 2)).val = 16 * (i 1).val + (i 2).val / 256 := rfl
  intro a
  match a with
  | ⟨0, _⟩ => show win0_3.index (pointOf (i 1) (i 2)) (0 : Fin 4) * 1 ≤ (i 0).val ∧ (i 0).val < win0_3.index (pointOf (i 1) (i 2)) (0 : Fin 4) * 1 + 1; omega
  | ⟨1, _⟩ => show win0_3.index (pointOf (i 1) (i 2)) (1 : Fin 4) * 1 ≤ (i 1).val ∧ (i 1).val < win0_3.index (pointOf (i 1) (i 2)) (1 : Fin 4) * 1 + 1; omega
  | ⟨2, _⟩ => show win0_3.index (pointOf (i 1) (i 2)) (2 : Fin 4) * 256 ≤ (i 2).val ∧ (i 2).val < win0_3.index (pointOf (i 1) (i 2)) (2 : Fin 4) * 256 + 256; omega
  | ⟨3, _⟩ => show win0_3.index (pointOf (i 1) (i 2)) (3 : Fin 4) * 64 ≤ (i 3).val ∧ (i 3).val < win0_3.index (pointOf (i 1) (i 2)) (3 : Fin 4) * 64 + 64; omega

/-- After the run the score array is the specification's scores of the argument arrays. -/
theorem final4 (c : Dev nD) : (dats m 0 c).arrAt 4 cfg0.N = score (Q m c) (K m c) :=
  (dats m 0 c).arrAt_eq_of_cover 4 (score (Q m c) (K m c)) (fun t _ => flushed4_eq m c t) cover4

/-- After the run the output array is the specification's output of the argument arrays. -/
theorem final3 (c : Dev nD) : (dats m 0 c).arrAt 3 cfg0.N = out (Q m c) (K m c) (W m c) :=
  (dats m 0 c).arrAt_eq_of_cover 3 (out (Q m c) (K m c) (W m c)) (fun t _ => flushed3_eq m c t) cover3

/-- The kernel's run, read: every weakly fair execution ends with the two result arrays at the specification's
    functions of the argument arrays as launched, and the argument arrays unchanged. -/
theorem run : θ_run defs (onTc (τ := τ) (main (F := Ideal))) ⟨m, fun _ => 0, ρ⟩ fun r => ∀ c : Dev nD,
      r.2.mem ((c : Thread nD τ).loc main_v0_0) = out (m ((c : Thread nD τ).loc main_arg0)) (m ((c : Thread nD τ).loc main_arg1)) (m ((c : Thread nD τ).loc main_arg2))
      ∧ r.2.mem ((c : Thread nD τ).loc main_v0_1) = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Result

end
-- ==== Proof.lean ====
/-
  Naive attention on 16 heads of 4096 rows and 64 features, with the whole score matrix written out: the kernel
  against its jnp reference.

  The kernel runs a grid of 16 heads by 16 blocks of 256 query rows. Per point it scales the query block by 1/8,
  multiplies it against the head's key rows (copied once per head into a scratch buffer), takes the row softmax the
  stable way — maximum, exponentials of the differences, their sum, the quotient — writes that 256 × 4096 block of
  scores, and writes its product with the head's value rows (carried in a second scratch buffer) as the 256 × 64
  output block. The reference divides the dot products by √64, applies the same stable softmax and contracts with the
  values.

  On the extended reals the two agree as soon as queries and keys are real, which the precondition provides: then
  scaling by 1/8 before the dot product is dividing the dot product by √64 = 8 (Proof/Softmax.lean), and everything
  after the logits is the same function applied to the same numbers — the maxima are folds of max from the same
  -∞ word over the same rows, the sums are sums over the same rows. The specification (Proof/Softmax.lean: `score`,
  `out`) is met from both sides: the reference's operations read one at a time (Proof/RefSpec.lean), and the kernel's
  blocks, whose key and value rows are those of the point's head at every point (Proof/Blocks.lean), read entry by
  entry (Proof/Payload.lean) and tiled over the arrays (Proof/Result.lean). The idealization rewrote nothing, so the
  fourth conjunct is trivial; the three frames are the programs' runs with the results forgotten.
-/
import proofs.«182152_j69741678952654_2_alg».proof.Defs
import proofs.«182152_j69741678952654_2_alg».proof.Proof.Gen.Kernel
import proofs.«182152_j69741678952654_2_alg».proof.Proof.Gen.Kernel.Frame
import proofs.«182152_j69741678952654_2_alg».proof.Proof.Gen.KernelIdeal
import proofs.«182152_j69741678952654_2_alg».proof.Proof.Gen.KernelIdeal.Frame
import proofs.«182152_j69741678952654_2_alg».proof.Proof.Gen.KernelIdeal.Value
import proofs.«182152_j69741678952654_2_alg».proof.Proof.Gen.ReferenceIdeal
import proofs.«182152_j69741678952654_2_alg».proof.Proof.Gen.ReferenceIdeal.Run
import proofs.«182152_j69741678952654_2_alg».proof.Proof.Gen.ReferenceIdeal.Read
import proofs.«182152_j69741678952654_2_alg».proof.Proof.Gen.Pre_finite_inputs
import proofs.«182152_j69741678952654_2_alg».proof.Proof.Softmax
import proofs.«182152_j69741678952654_2_alg».proof.Proof.RefSpec
import proofs.«182152_j69741678952654_2_alg».proof.Proof.Finite
import proofs.«182152_j69741678952654_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the output array at `out` and the score array at `score` of the argument arrays: the
    kernel by its blocks, the reference by its operations, the arguments real by the precondition. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ?_) (Cert.ReferenceIdeal.Value.run (F := Ideal) m' ρ')
  obtain ⟨hq, hk, -⟩ := Cert.Attn.Finite.real_of_pre _ _ _ (hpre c)
  refine ⟨(h c).1.trans ?_, (h c).2.1.trans ?_, (h c).2.2⟩
  · rw [Cert.ReferenceIdeal.Read.val_main_v15_eq, (hagree c).1, (hagree c).2.1, (hagree c).2.2]
    exact Cert.Attn.Ref.out_eq _ _ _ hq hk
  · rw [Cert.ReferenceIdeal.Read.val_main_v14_eq, (hagree c).1, (hagree c).2.1]
    exact Cert.Attn.Ref.score_eq _ _ hq hk

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
